-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  main_v8
-- ==== Kernel.lean ====
abbrev S4000000x4 : Shape := ⟨2, ![4000000, 4]⟩
abbrev S4000000x3 : Shape := ⟨2, ![4000000, 3]⟩
abbrev S_ : Shape := ⟨0, ![]⟩
abbrev S4030464x4 : Shape := ⟨2, ![4030464, 4]⟩
abbrev S4030464x3 : Shape := ⟨2, ![4030464, 3]⟩
abbrev S4x4030464 : Shape := ⟨2, ![4, 4030464]⟩
abbrev S4x31488x128 : Shape := ⟨3, ![4, 31488, 128]⟩
abbrev S3x4030464 : Shape := ⟨2, ![3, 4030464]⟩
abbrev S3x31488x128 : Shape := ⟨3, ![3, 31488, 128]⟩
abbrev S9x31488x128 : Shape := ⟨3, ![9, 31488, 128]⟩
abbrev S4x256x128 : Shape := ⟨3, ![4, 256, 128]⟩
abbrev S3x256x128 : Shape := ⟨3, ![3, 256, 128]⟩
abbrev S9x256x128 : Shape := ⟨3, ![9, 256, 128]⟩
abbrev S1x256x128 : Shape := ⟨3, ![1, 256, 128]⟩
abbrev S256x128 : Shape := ⟨2, ![256, 128]⟩
abbrev S9x4030464 : Shape := ⟨2, ![9, 4030464]⟩
abbrev S4030464x9 : Shape := ⟨2, ![4030464, 9]⟩
abbrev S4000000x9 : Shape := ⟨2, ![4000000, 9]⟩
abbrev S4000000x3x3 : Shape := ⟨3, ![4000000, 3, 3]⟩

abbrev nBuf : Space → Nat
  | .hbm => 17
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S_, .i32⟩
  | .hbm, ⟨3, _⟩ => ⟨S_, .f32⟩
  | .hbm, ⟨4, _⟩ => ⟨S4030464x4, .f32⟩
  | .hbm, ⟨5, _⟩ => ⟨S_, .i32⟩
  | .hbm, ⟨6, _⟩ => ⟨S_, .f32⟩
  | .hbm, ⟨7, _⟩ => ⟨S4030464x3, .f32⟩
  | .hbm, ⟨8, _⟩ => ⟨S4x4030464, .f32⟩
  | .hbm, ⟨9, _⟩ => ⟨S4x31488x128, .f32⟩
  | .hbm, ⟨10, _⟩ => ⟨S3x4030464, .f32⟩
  | .hbm, ⟨11, _⟩ => ⟨S3x31488x128, .f32⟩
  | .hbm, ⟨12, _⟩ => ⟨S9x31488x128, .f32⟩
  | .hbm, ⟨13, _⟩ => ⟨S9x4030464, .f32⟩
  | .hbm, ⟨14, _⟩ => ⟨S4030464x9, .f32⟩
  | .hbm, ⟨15, _⟩ => ⟨S4000000x9, .f32⟩
  | .hbm, ⟨16, _⟩ => ⟨S4000000x3x3, .f32⟩
  | .local _ .vmem, ⟨0, _⟩ => ⟨S4x256x128, .f32⟩
  | .local _ .vmem, ⟨1, _⟩ => ⟨S4x256x128, .f32⟩
  | .local _ .vmem, ⟨2, _⟩ => ⟨S3x256x128, .f32⟩
  | .local _ .vmem, ⟨3, _⟩ => ⟨S3x256x128, .f32⟩
  | .local _ .vmem, ⟨4, _⟩ => ⟨S9x256x128, .f32⟩
  | .local _ .vmem, ⟨5, _⟩ => ⟨S9x256x128, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![123], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4000000x4_S4030464x4_0304640_000 : S4000000x4.Pads (![0, 0] : Fin 2 → Nat) ![30464, 0] ![0, 0] S4030464x4
  h_S_ : 0 < S_.numel
  pads_S4000000x3_S4030464x3_0304640_000 : S4000000x3.Pads (![0, 0] : Fin 2 → Nat) ![30464, 0] ![0, 0] S4030464x3
  transposes_S4030464x4_S4x4030464_1_0 : S4030464x4.Transposes [1, 0] S4x4030464
  shapeCasts_S4x4030464_S4x31488x128 : S4x4030464.ShapeCasts S4x31488x128
  transposes_S4030464x3_S3x4030464_1_0 : S4030464x3.Transposes [1, 0] S3x4030464
  shapeCasts_S3x4030464_S3x31488x128 : S3x4030464.ShapeCasts S3x31488x128
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  inb_S4x256x128_S1x256x128_1_0_0 : ∀ a, (![1, 0, 0] : Fin 3 → Nat) a + S1x256x128.size a ≤ S4x256x128.size a
  inb_S4x256x128_S1x256x128_2_0_0 : ∀ a, (![2, 0, 0] : Fin 3 → Nat) a + S1x256x128.size a ≤ S4x256x128.size a
  inb_S4x256x128_S1x256x128_3_0_0 : ∀ a, (![3, 0, 0] : Fin 3 → Nat) a + S1x256x128.size a ≤ S4x256x128.size a
  inb_S3x256x128_S1x256x128_0_0_0 : ∀ a, (![0, 0, 0] : Fin 3 → Nat) a + S1x256x128.size a ≤ S3x256x128.size a
  inb_S3x256x128_S1x256x128_1_0_0 : ∀ a, (![1, 0, 0] : Fin 3 → Nat) a + S1x256x128.size a ≤ S3x256x128.size a
  inb_S3x256x128_S1x256x128_2_0_0 : ∀ a, (![2, 0, 0] : Fin 3 → Nat) a + S1x256x128.size a ≤ S3x256x128.size a
  inb_S9x256x128_S1x256x128_0_0_0 : ∀ a, (![0, 0, 0] : Fin 3 → Nat) a + S1x256x128.size a ≤ S9x256x128.size a
  shapeCasts_S256x128_S1x256x128 : S256x128.ShapeCasts S1x256x128
  inb_S9x256x128_S1x256x128_1_0_0 : ∀ a, (![1, 0, 0] : Fin 3 → Nat) a + S1x256x128.size a ≤ S9x256x128.size a
  inb_S9x256x128_S1x256x128_2_0_0 : ∀ a, (![2, 0, 0] : Fin 3 → Nat) a + S1x256x128.size a ≤ S9x256x128.size a
  inb_S9x256x128_S1x256x128_3_0_0 : ∀ a, (![3, 0, 0] : Fin 3 → Nat) a + S1x256x128.size a ≤ S9x256x128.size a
  inb_S9x256x128_S1x256x128_4_0_0 : ∀ a, (![4, 0, 0] : Fin 3 → Nat) a + S1x256x128.size a ≤ S9x256x128.size a
  inb_S9x256x128_S1x256x128_5_0_0 : ∀ a, (![5, 0, 0] : Fin 3 → Nat) a + S1x256x128.size a ≤ S9x256x128.size a
  inb_S9x256x128_S1x256x128_6_0_0 : ∀ a, (![6, 0, 0] : Fin 3 → Nat) a + S1x256x128.size a ≤ S9x256x128.size a
  inb_S9x256x128_S1x256x128_7_0_0 : ∀ a, (![7, 0, 0] : Fin 3 → Nat) a + S1x256x128.size a ≤ S9x256x128.size a
  inb_S9x256x128_S1x256x128_8_0_0 : ∀ a, (![8, 0, 0] : Fin 3 → Nat) a + S1x256x128.size a ≤ S9x256x128.size a
  shapeCasts_S9x31488x128_S9x4030464 : S9x31488x128.ShapeCasts S9x4030464
  transposes_S9x4030464_S4030464x9_1_0 : S9x4030464.Transposes [1, 0] S4030464x9
  slices_S4030464x9_S4000000x9_0_0 : S4030464x9.Slices ![0, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x128.size a ≤ S4x31488x128.size a
  hwx0_0 : ∀ i : grid0.Coords, EltTy.bits .f32 = 32 ∨ (Rect.block (s := S4x31488x128) S4x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x256x128.size a ≤ S3x31488x128.size a
  hwx0_1 : ∀ i : grid0.Coords, EltTy.bits .f32 = 32 ∨ (Rect.block (s := S3x31488x128) S3x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x256x128.size a ≤ S9x31488x128.size a
  hwx0_2 : ∀ i : grid0.Coords, EltTy.bits .f32 = 32 ∨ (Rect.block (s := S9x31488x128) S9x256x128.size (cc0_transform_2 i) (hinb0_2 i)).WholeWords (EltTy.packing .f32)

variable [Facts₀]

abbrev win0_0 : Pipeline.Window sig grid0 :=
  Pipeline.Window.ofSpec (Memref.whole main_v3) S4x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S9x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 98
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S_, .f32⟩
  | .hbm, ⟨8, _⟩ => ⟨S4000000x1, .f32⟩
  | .hbm, ⟨9, _⟩ => ⟨S4000000x1, .f32⟩
  | .hbm, ⟨10, _⟩ => ⟨S4000000x4, .f32⟩
  | .hbm, ⟨11, _⟩ => ⟨S4000000x4, .f32⟩
  | .hbm, ⟨12, _⟩ => ⟨S4000000x1, .f32⟩
  | .hbm, ⟨13, _⟩ => ⟨S4000000, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S_, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S_, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S_, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S_, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S_, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S4000000, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S_, .f32⟩
  | .hbm, ⟨72, _⟩ => ⟨S4000000, .f32⟩
  | .hbm, ⟨73, _⟩ => ⟨S4000000, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S_, .f32⟩
  | .hbm, ⟨81, _⟩ => ⟨S4000000, .f32⟩
  | .hbm, ⟨82, _⟩ => ⟨S4000000, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x9, .f32⟩
  | .hbm, ⟨93, _⟩ => ⟨S4000000x3x3, .f32⟩
  | .hbm, ⟨94, _⟩ => ⟨S4000000x1x3, .f32⟩
  | .hbm, ⟨95, _⟩ => ⟨S4000000x3x3, .f32⟩
  | .hbm, ⟨96, _⟩ => ⟨S4000000x3x3, .f32⟩
  | .hbm, ⟨97, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The mathematics of this certificate, with no program in sight.

  Each row of the input holds a quaternion q = (q0, q1, q2, q3) and three scales s = (s0, s1, s2). The quaternion is
  divided by its length clamped below at 1e-12, u = q / max (sqrt (q0² + q1² + q2² + q3²)) 1e-12; the nine entries of the
  rotation matrix R(u) are the usual quadratic forms in u; the columns of R are scaled, M i j = R i j * s j; and the
  result is the Gram matrix of M's rows, cov i k = M i 0 * M k 0 + M i 1 * M k 1 + M i 2 * M k 2.

  Everything is stated on the extended reals with the ideal instance's operations (`Ideal.sqrt`, `Ideal.div`) and the
  three float words the two programs share, so no law beyond the commutativity of the product is needed: a program that
  computes only the upper triangle of the Gram matrix and copies it below the diagonal (`kchan`) stores cov k i at place (i, k),
  which is cov i k.
-/
import Idealize.ShloMosaic.PureOps.Ideal
import Idealize.ShloMosaic.Lib.ValueIdx

noncomputable section

namespace Cert.QuatCov

open Idealize.ShloMosaic Idealize.ShloMosaic.ValueIdx

/-- The shapes of the two arguments and of the result. -/
abbrev SQ : Shape := ⟨2, ![4000000, 4]⟩
abbrev SS : Shape := ⟨2, ![4000000, 3]⟩
abbrev SC : Shape := ⟨3, ![4000000, 3, 3]⟩

/-- The clamp 1e-12, the number one and the number two, as the f32 words both programs carry. -/
def eps : EReal := Ideal.ofBits .f32 0x2B8CBCCC#32
def one : EReal := Ideal.ofBits .f32 0x3F800000#32
def two : EReal := Ideal.ofBits .f32 0x40000000#32

/-- The length of a quaternion, clamped below at 1e-12; the squares summed from the left. -/
def len (q : Fin 4 → EReal) : EReal :=
  max (Ideal.sqrt (q 0 * q 0 + q 1 * q 1 + q 2 * q 2 + q 3 * q 3)) eps

/-- The quaternion divided by its clamped length. -/
def unit (q : Fin 4 → EReal) (c : Fin 4) : EReal := Ideal.div (q c) (len q)

/-- The nine entries of the rotation matrix of u = (r, x, y, z), row by row: entry (i, j) at place 3 i + j. -/
def rotc (u : Fin 4 → EReal) (c : Fin 9) : EReal :=
  match c with
  | ⟨0, _⟩ => one - two * (u 2 * u 2 + u 3 * u 3)
  | ⟨1, _⟩ => two * (u 1 * u 2 - u 0 * u 3)
  | ⟨2, _⟩ => two * (u 1 * u 3 + u 0 * u 2)
  | ⟨3, _⟩ => two * (u 1 * u 2 + u 0 * u 3)
  | ⟨4, _⟩ => one - two * (u 1 * u 1 + u 3 * u 3)
  | ⟨5, _⟩ => two * (u 2 * u 3 - u 0 * u 1)
  | ⟨6, _⟩ => two * (u 1 * u 3 - u 0 * u 2)
  | ⟨7, _⟩ => two * (u 2 * u 3 + u 0 * u 1)
  | ⟨8, _⟩ => one - two * (u 1 * u 1 + u 2 * u 2)
  | ⟨_ + 9, h⟩ => absurd h (Nat.not_lt.2 (Nat.le_add_left _ _))

/-- Place 3 i + j of a 3 × 3 matrix laid out row by row. -/
def flat (i j : Fin 3) : Fin 9 := ⟨3 * i.val + j.val, by omega⟩

/-- The rotation of the normalized quaternion with its columns scaled: M i j = R i j * s j. -/
def mc (q : Fin 4 → EReal) (s : Fin 3 → EReal) (i j : Fin 3) : EReal := rotc (unit q) (flat i j) * s j

/-- The Gram matrix of M's rows, each sum taken from the left. -/
def cov (q : Fin 4 → EReal) (s : Fin 3 → EReal) (i k : Fin 3) : EReal :=
  mc q s i 0 * mc q s k 0 + mc q s i 1 * mc q s k 1 + mc q s i 2 * mc q s k 2

/-- The Gram matrix is symmetric: each product commutes. -/
theorem cov_comm (q : Fin 4 → EReal) (s : Fin 3 → EReal) (i k : Fin 3) : cov q s i k = cov q s k i := by
  unfold cov
  rw [mul_comm (mc q s i 0), mul_comm (mc q s i 1), mul_comm (mc q s i 2)]

/-- The nine places as a program fills them that computes the upper triangle only and copies it below the diagonal. -/
def kchan (q : Fin 4 → EReal) (s : Fin 3 → EReal) (c : Fin 9) : EReal :=
  match c with
  | ⟨0, _⟩ => cov q s 0 0
  | ⟨1, _⟩ => cov q s 0 1
  | ⟨2, _⟩ => cov q s 0 2
  | ⟨3, _⟩ => cov q s 0 1
  | ⟨4, _⟩ => cov q s 1 1
  | ⟨5, _⟩ => cov q s 1 2
  | ⟨6, _⟩ => cov q s 0 2
  | ⟨7, _⟩ => cov q s 1 2
  | ⟨8, _⟩ => cov q s 2 2
  | ⟨_ + 9, h⟩ => absurd h (Nat.not_lt.2 (Nat.le_add_left _ _))

/-- Filled that way, place 3 i + k holds the Gram matrix's entry (i, k). -/
theorem kchan_flat (q : Fin 4 → EReal) (s : Fin 3 → EReal) (i k : Fin 3) : kchan q s (flat i k) = cov q s i k := by
  fin_cases i <;> fin_cases k <;> first | rfl | exact cov_comm q s _ _

/-- THE RESULT: entry (n, i, k) is the Gram entry (i, k) of row n's quaternion and scales. -/
def G (x0 : SQ.Idx → EReal) (x1 : SS.Idx → EReal) : SC.Idx → EReal :=
  fun i => cov (fun c => x0 (ix2 (i 0) c)) (fun j => x1 (ix2 (i 0) j)) (i 1) (i 2)

end Cert.QuatCov

end
-- ==== Proof.KernelBlock.lean ====
/-
  What the kernel's body leaves in one block.

  The body loads the four slabs of a [4, 256, 128] block of quaternion coordinates and the three slabs of a [3, 256, 128]
  block of scales, and stores nine slabs of a [9, 256, 128] block. Every operation between the loads and the stores acts
  entry by entry, so entry (a, b) of the stored slab c depends only on entries (a, b) of the seven loaded slabs: it is
  the place-c value `kchan` of the quaternion and the scales found there. The nine stores tile the block, so the block
  after the body is that one function of the two input blocks (`out_eq`).
-/
import proofs.«102986_j60945585930483_2_alg».proof.Proof.Gen.KernelIdeal.Frame
import proofs.«102986_j60945585930483_2_alg».proof.Proof.Spec
import Idealize.ShloMosaic.Lib.Pipeline.Value
import Idealize.ShloMosaic.Lib.ValueIdx
import Idealize.ShloMosaic.Lib.ValueLayout

noncomputable section

namespace Cert.QuatCov.Kernel

open Cert.KernelIdeal Cert.KernelIdeal.Gen Idealize.ShloMosaic Idealize.ShloMosaic.ValueIdx Idealize.ShloMosaic.TcCoe

/-- A rectangle cutting one slab at offset c out of n slabs lies inside them. -/
theorem slab_lt {n c : Nat}
    (inb : ∀ d, (![c, 0, 0] : Fin 3 → Nat) d + (![1, 256, 128] : Fin 3 → Nat) d ≤ (⟨3, ![n, 256, 128]⟩ : Shape).size d) : c < n := by
  have h : c + 1 ≤ n := inb 0
  omega

/-- Through the unit-stride rectangle that cuts slab c out of an [n, 256, 128] array, local index (u, a, b) is (c, a, b). -/
theorem slab_idx {n : Nat} (c : Nat)
    (inb : ∀ d, (![c, 0, 0] : Fin 3 → Nat) d + (![1, 256, 128] : Fin 3 → Nat) d ≤ (⟨3, ![n, 256, 128]⟩ : Shape).size d)
    (u : Fin 1) (a : Fin 256) (b : Fin 128) :
    (Rect.unit (s := (⟨3, ![n, 256, 128]⟩ : Shape)) ![c, 0, 0] ![1, 256, 128] inb).toLoadRect.idx (ix3 u a b)
      = ix3 (⟨c, slab_lt inb⟩ : Fin n) a b := by
  funext d
  apply Fin.ext
  match d with
  | ⟨0, _⟩ => show c + 1 * u.val = c; omega
  | ⟨1, _⟩ => show 0 + 1 * a.val = a.val; omega
  | ⟨2, _⟩ => show 0 + 1 * b.val = b.val; omega

/-- The same for the rectangle's embedding, which is that placement. -/
theorem slab_emb {n : Nat} (c : Nat)
    (inb : ∀ d, (![c, 0, 0] : Fin 3 → Nat) d + (![1, 256, 128] : Fin 3 → Nat) d ≤ (⟨3, ![n, 256, 128]⟩ : Shape).size d)
    (u : Fin 1) (a : Fin 256) (b : Fin 128) :
    (Rect.unit (s := (⟨3, ![n, 256, 128]⟩ : Shape)) ![c, 0, 0] ![1, 256, 128] inb).emb (ix3 u a b)
      = ix3 (⟨c, slab_lt inb⟩ : Fin n) a b :=
  slab_idx c inb u a b

/-- Place `ch` of the Gram matrix of the quaternion and scales found at entry (a, b) of the input blocks' slabs. -/
def chanAt (x0 : Vec Ideal S4x256x128 .f32) (x1 : Vec Ideal S3x256x128 .f32) (ch : Fin 9) (a : Fin 256) (b : Fin 128) : EReal :=
  kchan (fun c => x0 (ix3 c a b)) (fun j => x1 (ix3 j a b)) ch

/-- The output block as one function of the two input blocks. -/
def blockOut (x0 : Vec Ideal S4x256x128 .f32) (x1 : Vec Ideal S3x256x128 .f32) : Vec Ideal S9x256x128 .f32 :=
  fun y => chanAt x0 x1 (y 0) (y 1) (y 2)

set_option maxHeartbeats 4000000 in
/-- The body's nine stores are the nine slabs of `blockOut`: each stored value is a chain of entrywise operations on the
    loaded slabs, read at one entry; the stores tile the block. -/
theorem out_eq (x0 : Vec Ideal S4x256x128 .f32) (x1 : Vec Ideal S3x256x128 .f32) :
    out0_2 (F := Ideal) x0 x1 = blockOut x0 x1 := by
  funext y
  unfold out0_2
  refine View.canon_apply_of_pieces (blockOut x0 x1) _ ?_ y (cover0_2 _ _ _ _ _ _ _ _ _ y)
  intro p hp
  simp only [List.mem_cons, List.mem_nil_iff, or_false] at hp
  rcases hp with rfl | rfl | rfl | rfl | rfl | rfl | rfl | rfl | rfl
  all_goals
    intro x
    obtain ⟨u, a, b, rfl⟩ : ∃ (u : Fin 1) (a : Fin 256) (b : Fin 128), x = ix3 u a b := ⟨x 0, x 1, x 2, eq_ix3 x⟩
    simp only [k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35, k0_pay36,
      k0_pay37, k0_pay38, k0_pay39, k0_pay40, k0_pay41, k0_pay42,
      shapeCast_ab_1ab_apply, mulf, addf, subf, divf, sqrt, maximumf, broadcast, shapeCast_1ab_ab_apply, View.ld,
      r0_0, r0_1, r0_2, r0_3, r0_4, r0_5, r0_6, r0_7, r0_8, r0_9, r0_10, r0_11, r0_12, r0_13, r0_14, r0_15, slab_idx, slab_emb]
    first | rfl | fail "a piece's closing rfl failed"

end Cert.QuatCov.Kernel

end
-- ==== Proof.KernelArray.lean ====
/-
  From blocks to the array.

  The grid has 123 points; at point t each of the three windows holds rows 256 t … 256 t + 255 of its array, all slabs and
  all 128 lanes. Entry (c, a, b) of a window's block at point t is therefore entry (c, 256 t + a, b) of its array, and
  since the body computes entry (ch, a, b) of the output block from entries (·, a, b) of the two input blocks, what point t
  writes back is block t of ONE function of the two staged arrays: entry (ch, r, l) is the place-ch value of the quaternion
  and the scales found at (·, r, l). The 123 blocks tile the 31488 rows, so the output array ends holding that function.
-/
import proofs.«102986_j60945585930483_2_alg».proof.Proof.KernelBlock
import Idealize.ShloMosaic.Lib.Pipeline.Value

noncomputable section

namespace Cert.QuatCov.Kernel

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- Place `ch` of the Gram matrix of the quaternion and scales found at (·, r, l) of the two staged arrays. -/
def arrAt3 (a0 : Vec Ideal S4x31488x128 .f32) (a1 : Vec Ideal S3x31488x128 .f32) (ch : Fin 9) (r : Fin 31488) (l : Fin 128) : EReal :=
  kchan (fun c => a0 (ix3 c r l)) (fun j => a1 (ix3 j r l)) ch

/-- The output array as one function of the two staged arrays. -/
def arrOut (a0 : Vec Ideal S4x31488x128 .f32) (a1 : Vec Ideal S3x31488x128 .f32) : Vec Ideal S9x31488x128 .f32 :=
  fun y => arrAt3 a0 a1 (y 0) (y 1) (y 2)

/-- The printed index maps, decided over the grid: at point t every window is at block (0, t, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- Entry x of the quaternion window's block at point t is the staged array's entry k, when k is x moved 256 t rows down. -/
theorem iblk0_apply (c : Dev nD) (t : Fin cfg0.N) (x : S4x256x128.Idx) (k : S4x31488x128.Idx)
    (h0 : (k 0).val = (x 0).val) (h1 : (k 1).val = 256 * t.val + (x 1).val) (h2 : (k 2).val = (x 2).val) :
    (iblk m c 0 t : Vec Ideal S4x256x128 .f32) x = (V m c main_v3 : S4x31488x128.Idx → EReal) k := by
  obtain ⟨e00, e01, e02, -⟩ := idx_facts t
  unfold iblk
  rw [View.read_apply]
  refine (cast_eq _ _).trans ?_
  refine congrArg (V m c main_v3) ?_
  funext a
  apply Fin.ext
  match a with
  | ⟨0, _⟩ => show win0_0.index t (0 : Fin 3) * 4 + 1 * (x 0).val = (k 0).val; rw [e00, h0]; omega
  | ⟨1, _⟩ => show win0_0.index t (1 : Fin 3) * 256 + 1 * (x 1).val = (k 1).val; rw [e01, h1]; omega
  | ⟨2, _⟩ => show win0_0.index t (2 : Fin 3) * 128 + 1 * (x 2).val = (k 2).val; rw [e02, h2]; omega

/-- The same for the scales window. -/
theorem iblk1_apply (c : Dev nD) (t : Fin cfg0.N) (x : S3x256x128.Idx) (k : S3x31488x128.Idx)
    (h0 : (k 0).val = (x 0).val) (h1 : (k 1).val = 256 * t.val + (x 1).val) (h2 : (k 2).val = (x 2).val) :
    (iblk m c 1 t : Vec Ideal S3x256x128 .f32) x = (V m c main_v5 : S3x31488x128.Idx → EReal) k := by
  obtain ⟨-, -, -, e10, e11, e12, -⟩ := idx_facts t
  unfold iblk
  rw [View.read_apply]
  refine (cast_eq _ _).trans ?_
  refine congrArg (V m c main_v5) ?_
  funext a
  apply Fin.ext
  match a with
  | ⟨0, _⟩ => show win0_1.index t (0 : Fin 3) * 3 + 1 * (x 0).val = (k 0).val; rw [e10, h0]; omega
  | ⟨1, _⟩ => show win0_1.index t (1 : Fin 3) * 256 + 1 * (x 1).val = (k 1).val; rw [e11, h1]; omega
  | ⟨2, _⟩ => show win0_1.index t (2 : Fin 3) * 128 + 1 * (x 2).val = (k 2).val; rw [e12, h2]; omega

/-- The body's output block at point t, at block index y, is `arrOut` of the two staged arrays at y moved 256 t rows down. -/
theorem block_eq (c : Dev nD) (t : Fin cfg0.N) (y : S9x256x128.Idx) (k : S9x31488x128.Idx)
    (h0 : (k 0).val = (y 0).val) (h1 : (k 1).val = 256 * t.val + (y 1).val) (h2 : (k 2).val = (y 2).val) :
    blockOut (iblk m c 0 t) (iblk m c 1 t) y = arrOut (V m c main_v3) (V m c main_v5) k := by
  have e0 : (y 0 : Fin 9) = (k 0 : Fin 9) := Fin.ext h0.symm
  have eq : (fun c' : Fin 4 => (iblk m c 0 t : Vec Ideal S4x256x128 .f32) (ix3 c' (y 1) (y 2)))
      = fun c' => (V m c main_v3 : S4x31488x128.Idx → EReal) (ix3 c' (k 1) (k 2)) :=
    funext fun c' => iblk0_apply m c t (ix3 c' (y 1) (y 2)) (ix3 c' (k 1) (k 2)) rfl h1 h2
  have es : (fun q : Fin 3 => (iblk m c 1 t : Vec Ideal S3x256x128 .f32) (ix3 q (y 1) (y 2)))
      = fun q => (V m c main_v5 : S3x31488x128.Idx → EReal) (ix3 q (k 1) (k 2)) :=
    funext fun q => iblk1_apply m c t (ix3 q (y 1) (y 2)) (ix3 q (k 1) (k 2)) rfl h1 h2
  unfold blockOut arrOut chanAt arrAt3
  exact congr (congr (congrArg kchan eq) es) e0

/-- WHAT POINT t WRITES BACK is block t of `arrOut` of the two staged arrays as the region finds them. -/
theorem flushed_eq (c : Dev nD) (t : Fin cfg0.N) :
    (dats m 0 c).flushed 2 t
      = ((cfg0.win 2).blk t).view.read (Elt Ideal) (arrOut (V m c main_v3) (V m c main_v5)) := by
  show (cfg0.win 2).cut (grid0.coords t) ((dats m 0 c).after 2 t) = _
  rw [after0_2, out_eq (iblk m c 0 t) (iblk m c 1 t)]
  obtain ⟨-, -, -, -, -, -, e20, e21, e22⟩ := idx_facts t
  funext j
  rw [View.read_apply]
  refine Eq.trans ?_ (cast_eq _ _).symm
  refine block_eq m c t _ _ ?_ ?_ ?_
  · show win0_2.index t (0 : Fin 3) * 9 + 1 * (j 0).val = (j 0).val; rw [e20]; omega
  · show win0_2.index t (1 : Fin 3) * 256 + 1 * (j 1).val = 256 * t.val + (j 1).val; rw [e21]; omega
  · show win0_2.index t (2 : Fin 3) * 128 + 1 * (j 2).val = (j 2).val; rw [e22]; omega

/-- An index of the output array is in point t's block iff each coordinate is in the block's range on its axis. -/
theorem mem_blk (t : Fin cfg0.N) (i : S9x31488x128.Idx) :
    i ∈ ((cfg0.win 2).blk t).view.set
      ↔ ∀ a : Fin 3, win0_2.index t a * S9x256x128.size a ≤ (i a).val ∧ (i a).val < win0_2.index t a * S9x256x128.size a + S9x256x128.size a := by
  show i ∈ ((View.whole main_v6).slice (win0_2.rect t)).set ↔ _
  rw [View.set_slice_whole, Rect.mem_set_unit]
  exact Iff.rfl

/-- Every index of the output array is in the block of the point that holds its row: point r / 256. -/
theorem cover (i : S9x31488x128.Idx) :
    ∃ t : Fin cfg0.N, (cfg0.win 2).flush t = true ∧ i ∈ ((cfg0.win 2).blk t).view.set := by
  have hi0 : (i 0).val < 9 := (i 0).isLt
  have hi1 : (i 1).val < 31488 := (i 1).isLt
  have hi2 : (i 2).val < 128 := (i 2).isLt
  have hN : cfg0.N = 123 := N_0
  have ht : (i 1).val / 256 < cfg0.N := by rw [hN]; omega
  obtain ⟨-, -, -, -, -, -, e20, e21, e22⟩ := idx_facts ⟨(i 1).val / 256, ht⟩
  refine ⟨⟨(i 1).val / 256, ht⟩, flush0_2 _, ?_⟩
  rw [mem_blk]
  intro a
  match a with
  | ⟨0, _⟩ =>
    show win0_2.index ⟨(i 1).val / 256, ht⟩ (0 : Fin 3) * 9 ≤ (i 0).val ∧ (i 0).val < win0_2.index ⟨(i 1).val / 256, ht⟩ (0 : Fin 3) * 9 + 9
    rw [e20]; omega
  | ⟨1, _⟩ =>
    show win0_2.index ⟨(i 1).val / 256, ht⟩ (1 : Fin 3) * 256 ≤ (i 1).val ∧ (i 1).val < win0_2.index ⟨(i 1).val / 256, ht⟩ (1 : Fin 3) * 256 + 256
    rw [e21]; show (i 1).val / 256 * 256 ≤ (i 1).val ∧ (i 1).val < (i 1).val / 256 * 256 + 256; omega
  | ⟨2, _⟩ =>
    show win0_2.index ⟨(i 1).val / 256, ht⟩ (2 : Fin 3) * 128 ≤ (i 2).val ∧ (i 2).val < win0_2.index ⟨(i 1).val / 256, ht⟩ (2 : Fin 3) * 128 + 128
    rw [e22]; omega

/-- THE OUTPUT ARRAY after the region: `arrOut` of the two staged arrays. -/
theorem final_out (c : Dev nD) :
    (dats m 0 c).arrAt 2 cfg0.N = arrOut (V m c main_v3) (V m c main_v5) :=
  (dats m 0 c).arrAt_eq_of_cover 2 (arrOut (V m c main_v3) (V m c main_v5)) (fun t _ => flushed_eq m c t) (cover)

end Cert.QuatCov.Kernel

end
-- ==== Proof.HostPrefix.lean ====
/-
  The two staged arrays, read at an index.

  Before the region the program pads each argument with 30464 rows, transposes it and cuts its long axis into 31488 rows of 128
  lanes: entry (c, r, l) of a staged array is entry (128 r + l, c) of the padded argument, and where 128 r + l is one of the
  argument's own 4000000 rows, that is the argument's entry there — the padding value is never read at such an index.
-/
import proofs.«102986_j60945585930483_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.QuatCov.Kernel

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The staged quaternion array is the first argument padded, transposed and cut into rows of 128 lanes. -/
theorem staged_q (c : Dev nD) :
    (V m c main_v3 : S4x31488x128.Idx → EReal)
      = shapeCast S4x31488x128 (transpose S4x4030464 [1, 0]
          (pad S4030464x4 ![0, 0] ![30464, 0] ![0, 0] (m ((c : Thread nD τ).loc main_arg0))
            (sitofp (F := Ideal) .f32 (constantI S_ 32 0#32)) pads_S4000000x4_S4030464x4_0304640_000 h_S_)
          transposes_S4030464x4_S4x4030464_1_0) shapeCasts_S4x4030464_S4x31488x128 := by
  dsimp only [V, V0]
  simp only [hostOps0, hostOps0_1, hostOps0_2, hostOps0_3, hostOps0_4, List.flatten_cons, List.flatten_nil, List.append_nil,
    List.cons_append, List.nil_append]
  after_results
  rfl

/-- The staged scales array is the second argument padded, transposed and cut into rows of 128 lanes. -/
theorem staged_s (c : Dev nD) :
    (V m c main_v5 : S3x31488x128.Idx → EReal)
      = shapeCast S3x31488x128 (transpose S3x4030464 [1, 0]
          (pad S4030464x3 ![0, 0] ![30464, 0] ![0, 0] (m ((c : Thread nD τ).loc main_arg1))
            (sitofp (F := Ideal) .f32 (constantI S_ 32 0#32)) pads_S4000000x3_S4030464x3_0304640_000 h_S_)
          transposes_S4030464x3_S3x4030464_1_0) shapeCasts_S3x4030464_S3x31488x128 := by
  dsimp only [V, V0]
  simp only [hostOps0, hostOps0_1, hostOps0_2, hostOps0_3, hostOps0_4, List.flatten_cons, List.flatten_nil, List.append_nil,
    List.cons_append, List.nil_append]
  after_results
  rfl

/-- Entry (ch, r, l) of the staged quaternion array, for 128 r + l = n one of the argument's rows, is the argument's (n, ch). -/
theorem staged_q_apply (c : Dev nD) (ch : Fin 4) (r : Fin 31488) (l : Fin 128) (n : Fin 4000000)
    (hn : n.val = 128 * r.val + l.val) :
    (V m c main_v3 : S4x31488x128.Idx → EReal) (ix3 ch r l)
      = (m ((c : Thread nD τ).loc main_arg0) : S4000000x4.Idx → EReal) (ix2 n ch) := by
  rw [staged_q]
  have hp : 128 * r.val + l.val < 4030464 := by have := n.isLt; omega
  refine (shapeCast_apply _ shapeCasts_S4x4030464_S4x31488x128 (ix3 ch r l)
    (ix2 ch (⟨128 * r.val + l.val, hp⟩ : Fin 4030464)) ?_).trans ?_
  · rw [Shape.rowMajor_val_two, Shape.rowMajor_val_three]
    show ch.val * 4030464 + (128 * r.val + l.val) = (ch.val * 31488 + r.val) * 128 + l.val
    omega
  refine (transpose_ix2_apply _ transposes_S4030464x4_S4x4030464_1_0 ch (⟨128 * r.val + l.val, hp⟩ : Fin 4030464)).trans ?_
  exact pad_apply_of_inside _ _ _ _ _ pads_S4000000x4_S4030464x4_0304640_000 h_S_
    (ix2 (⟨128 * r.val + l.val, hp⟩ : Fin 4030464) ch) (ix2 n ch) (fun a => match a with
      | ⟨0, _⟩ => by show 128 * r.val + l.val = 0 + n.val * (0 + 1); omega
      | ⟨1, _⟩ => by show ch.val = 0 + ch.val * (0 + 1); omega)

/-- Entry (k, r, l) of the staged scales array, for 128 r + l = n one of the argument's rows, is the argument's (n, k). -/
theorem staged_s_apply (c : Dev nD) (k : Fin 3) (r : Fin 31488) (l : Fin 128) (n : Fin 4000000)
    (hn : n.val = 128 * r.val + l.val) :
    (V m c main_v5 : S3x31488x128.Idx → EReal) (ix3 k r l)
      = (m ((c : Thread nD τ).loc main_arg1) : S4000000x3.Idx → EReal) (ix2 n k) := by
  rw [staged_s]
  have hp : 128 * r.val + l.val < 4030464 := by have := n.isLt; omega
  refine (shapeCast_apply _ shapeCasts_S3x4030464_S3x31488x128 (ix3 k r l)
    (ix2 k (⟨128 * r.val + l.val, hp⟩ : Fin 4030464)) ?_).trans ?_
  · rw [Shape.rowMajor_val_two, Shape.rowMajor_val_three]
    show k.val * 4030464 + (128 * r.val + l.val) = (k.val * 31488 + r.val) * 128 + l.val
    omega
  refine (transpose_ix2_apply _ transposes_S4030464x3_S3x4030464_1_0 k (⟨128 * r.val + l.val, hp⟩ : Fin 4030464)).trans ?_
  exact pad_apply_of_inside _ _ _ _ _ pads_S4000000x3_S4030464x3_0304640_000 h_S_
    (ix2 (⟨128 * r.val + l.val, hp⟩ : Fin 4030464) k) (ix2 n k) (fun a => match a with
      | ⟨0, _⟩ => by show 128 * r.val + l.val = 0 + n.val * (0 + 1); omega
      | ⟨1, _⟩ => by show k.val = 0 + k.val * (0 + 1); omega)

end Cert.QuatCov.Kernel

end
-- ==== Proof.HostTail.lean ====
/-
  The lines after the region, read at an index.

  After the region the program joins the output's 31488 rows of 128 lanes into one axis of 4030464, transposes, keeps the
  first 4000000 rows and cuts each row of nine into three rows of three. Entry (n, i, k) of the result is therefore entry
  (3 i + k, n / 128, n % 128) of the region's output array.
-/
import proofs.«102986_j60945585930483_2_alg».proof.Proof.Gen.KernelIdeal.Frame
import proofs.«102986_j60945585930483_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.QuatCov.Kernel

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The four lines after the region as one function of the region's output array. -/
def tail (W : S9x31488x128.Idx → EReal) : S4000000x3x3.Idx → EReal :=
  shapeCast S4000000x3x3 (extractStridedSlice S4000000x9 ![0, 0]
    (transpose S4030464x9 [1, 0] (shapeCast S9x4030464 W shapeCasts_S9x31488x128_S9x4030464)
      transposes_S9x4030464_S4030464x9_1_0) slices_S4030464x9_S4000000x9_0_0) shapeCasts_S4000000x9_S4000000x3x3

/-- The program's result after the lines that follow the region is `tail` of the output array the region leaves. -/
theorem tail_eq (c : Dev nD) :
    (Pipeline.afterTail₀ cfgs (dats m) 0 (V0 m) [hostOps1] c main_v10 : S4000000x3x3.Idx → EReal)
      = tail ((dats m 0 c).arrAt 2 cfg0.N) := by
  have hW : Pipeline.withArrays (cfgs 0).spec c (V0 m c) (fun w => (dats m 0 c).arrAt w (cfgs 0).N) (Proc.devRef .tc main_v6)
      = (dats m 0 c).arrAt 2 cfg0.N :=
    Pipeline.withArrays_arr spec0 launch0.win.arr_inj c _ _ 2
  unfold Pipeline.afterTail₀ tail
  show StableHlo.after hostOps1 _ (Proc.devRef .tc main_v10) = _
  after_results
  rw [hW]
  rfl

/-- Entry (n, i, k) of `tail W` is entry (3 i + k, n / 128, n % 128) of W. -/
theorem tail_apply (W : S9x31488x128.Idx → EReal) (n : Fin 4000000) (i k : Fin 3) :
    tail W (ix3 n i k)
      = W (ix3 (flat i k) (⟨n.val / 128, by have := n.isLt; omega⟩ : Fin 31488) (⟨n.val % 128, Nat.mod_lt _ (by decide)⟩ : Fin 128)) := by
  have hn := n.isLt
  have hi := i.isLt
  have hk := k.isLt
  unfold tail
  refine (shapeCast_apply _ shapeCasts_S4000000x9_S4000000x3x3 (ix3 n i k) (ix2 n (flat i k)) ?_).trans ?_
  · rw [Shape.rowMajor_val_two, Shape.rowMajor_val_three]
    show n.val * 9 + (3 * i.val + k.val) = (n.val * 3 + i.val) * 3 + k.val
    omega
  refine (extractStridedSlice_apply _ _ slices_S4030464x9_S4000000x9_0_0 (ix2 n (flat i k))
    (ix2 (⟨n.val, by omega⟩ : Fin 4030464) (flat i k)) (fun a => match a with
      | ⟨0, _⟩ => by show n.val = 0 + n.val; omega
      | ⟨1, _⟩ => by show (flat i k).val = 0 + (flat i k).val; omega)).trans ?_
  refine (transpose_ix2_apply _ transposes_S9x4030464_S4030464x9_1_0 (⟨n.val, by omega⟩ : Fin 4030464) (flat i k)).trans ?_
  refine shapeCast_apply _ shapeCasts_S9x31488x128_S9x4030464 (ix2 (flat i k) (⟨n.val, by omega⟩ : Fin 4030464))
    (ix3 (flat i k) (⟨n.val / 128, by omega⟩ : Fin 31488) (⟨n.val % 128, Nat.mod_lt _ (by decide)⟩ : Fin 128)) ?_
  rw [Shape.rowMajor_val_two, Shape.rowMajor_val_three]
  show ((flat i k).val * 31488 + n.val / 128) * 128 + n.val % 128 = (flat i k).val * 4030464 + n.val
  omega

end Cert.QuatCov.Kernel

end
-- ==== Proof.KernelRun.lean ====
/-
  The kernel's program, run: its result is the specification's `G` of the two arguments.

  The result's entry (n, i, k) is, by the lines after the region, entry (3 i + k, n / 128, n % 128) of the region's output
  array; that array is one function of the two staged arrays, whose place 3 i + k is the Gram entry (i, k) — the entries
  below the diagonal being copies of those above, and the Gram matrix symmetric — of the quaternion and scales staged at
  (·, n / 128, n % 128); and those are row n of the two arguments, since 128 (n / 128) + n % 128 = n.
-/
import proofs.«102986_j60945585930483_2_alg».proof.Proof.KernelArray
import proofs.«102986_j60945585930483_2_alg».proof.Proof.HostPrefix
import proofs.«102986_j60945585930483_2_alg».proof.Proof.HostTail

noncomputable section

namespace Cert.QuatCov.Kernel

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (ρ : Dev nD → PrngReg)

/-- Entry (n, i, k) of the tail of the region's output array is the Gram entry (i, k) of row n of the arguments. -/
theorem result_apply (c : Dev nD) (n : Fin 4000000) (i k : Fin 3) :
    tail (arrOut (V m c main_v3) (V m c main_v5)) (ix3 n i k)
      = cov (fun c' => (m ((c.tc : Thread nD τ).loc main_arg0) : S4000000x4.Idx → EReal) (ix2 n c'))
          (fun q => (m ((c.tc : Thread nD τ).loc main_arg1) : S4000000x3.Idx → EReal) (ix2 n q)) i k := by
  have hn := n.isLt
  rw [tail_apply]
  refine (kchan_flat _ _ i k).trans ?_
  have e0 : (fun c' : Fin 4 => (V m c main_v3 : S4x31488x128.Idx → EReal)
        (ix3 c' (⟨n.val / 128, by omega⟩ : Fin 31488) (⟨n.val % 128, Nat.mod_lt _ (by decide)⟩ : Fin 128)))
      = fun c' => (m ((c.tc : Thread nD τ).loc main_arg0) : S4000000x4.Idx → EReal) (ix2 n c') :=
    funext fun c' => staged_q_apply m c c' _ _ n (by show n.val = 128 * (n.val / 128) + n.val % 128; omega)
  have e1 : (fun q : Fin 3 => (V m c main_v5 : S3x31488x128.Idx → EReal)
        (ix3 q (⟨n.val / 128, by omega⟩ : Fin 31488) (⟨n.val % 128, Nat.mod_lt _ (by decide)⟩ : Fin 128)))
      = fun q => (m ((c.tc : Thread nD τ).loc main_arg1) : S4000000x3.Idx → EReal) (ix2 n q) :=
    funext fun q => staged_s_apply m c q _ _ n (by show n.val = 128 * (n.val / 128) + n.val % 128; omega)
  exact congrArg₂ (fun (f : Fin 4 → EReal) (g : Fin 3 → EReal) => cov f g i k) e0 e1

/-- THE RESULT after the lines that follow the region: `G` of the two arguments. -/
theorem result_eq (c : Dev nD) :
    (Pipeline.afterTail₀ cfgs (dats m) 0 (V0 m) [hostOps1] c main_v10 : S4000000x3x3.Idx → EReal)
      = G (m ((c.tc : Thread nD τ).loc main_arg0)) (m ((c.tc : Thread nD τ).loc main_arg1)) := by
  rw [tail_eq, final_out]
  funext j
  obtain ⟨n, i, k, rfl⟩ : ∃ (n : Fin 4000000) (i k : Fin 3), j = ix3 n i k := ⟨j 0, j 1, j 2, eq_ix3 j⟩
  exact result_apply m c n i k

/-- The frame run re-posted: the result at `G` of the arguments, the arguments unchanged. -/
theorem run : θ_run defs (onTc (τ := τ) (main (F := Ideal))) ⟨m, fun _ => 0, ρ⟩ (fun r => ∀ c : Dev nD,
      r.2.mem ((c.tc : Thread nD τ).loc main_v10)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v10 (Pipeline.mem_restRefs_of main_v10 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.QuatCov.Kernel

end
-- ==== Proof.RefValue.lean ====
/-
  The reference program computes, row by row, the Gram matrix of the scaled rotation of the normalized quaternion.

  The program is read one operation at a time, always at explicit coordinates: row `n`, a column of the quaternion,
  an entry of the 3 × 3 matrix. The clamped length of row `n` is `len`; the four normalized columns are `unit`; the nine
  products and differences are the nine entries `rotc`; the nine columns joined side by side and read back as a
  3 × 3 matrix put entry (i, j) at place 3 i + j; the scales multiply the columns; and the contraction over the last
  axis is the three-term sum `cov`.
-/
import proofs.«102986_j60945585930483_2_alg».proof.Proof.Gen.ReferenceIdeal.Read
import proofs.«102986_j60945585930483_2_alg».proof.Proof.Spec

noncomputable section

namespace Cert.QuatCov.Ref

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-- The two arguments' types: one quaternion per row, three scales per row. -/
abbrev Quats : Type := (⟨S4000000x4, .f32⟩ : BufTy).Contents (Elt Ideal)
abbrev Scales : Type := (⟨S4000000x3, .f32⟩ : BufTy).Contents (Elt Ideal)

/-- Row `n`'s quaternion and row `n`'s scales. -/
abbrev quat (x0 : Quats) (n : Fin 4000000) : Fin 4 → EReal := fun c => x0 (ix2 n c)
abbrev scal (x1 : Scales) (n : Fin 4000000) : Fin 3 → EReal := fun j => x1 (ix2 n j)

/-! ## The clamped length -/

/-- The sum of the four squares, its square root, and the clamp: `len` of row `n`. -/
theorem len_eq (x0 : Quats) (n : Fin 4000000) :
    val_main_v2 (F := Ideal) x0 (ix2 n (0 : Fin 1)) = len (quat x0 n) := by
  have e : ∀ k : Fin 4, idx_main_call0_v1 (idx_main_call0_v2 (ix2 n (0 : Fin 1))) k = ix2 n k := fun k =>
    funext fun a => by match a with | ⟨0, _⟩ => rfl | ⟨1, _⟩ => rfl
  rw [val_main_v2_apply, val_main_v0_apply, val_main_call0_v2_apply, val_main_call0_v1_apply, val_main_v1_apply,
    val_main_cst_apply, val_main_call0_cst_apply, Fin.sum_univ_four, e 0, e 1, e 2, e 3,
    val_main_call0_v0_apply, val_main_call0_v0_apply, val_main_call0_v0_apply, val_main_call0_v0_apply,
    Ideal.ofBits_def, Ideal.ofBits_zero_f32, zero_add]
  rfl

/-! ## The normalized quaternion -/

/-- Every entry of the quotient array is the entry of the quaternion divided by its row's clamped length. -/
theorem div_eq (x0 : Quats) (n : Fin 4000000) (c : Fin 4) :
    val_main_v4 (F := Ideal) x0 (ix2 n c) = unit (quat x0 n) c := by
  have e : idx_main_v3 (ix2 n c) = ix2 n (0 : Fin 1) :=
    funext fun a => by match a with | ⟨0, _⟩ => rfl | ⟨1, _⟩ => rfl
  rw [val_main_v4_apply, val_main_v3_apply, e, len_eq]
  rfl

/-- The four columns sliced out of the quotient array and read as vectors: r, x, y, z of row `n`. -/
theorem r_eq (x0 : Quats) (n : Fin 4000000) : val_main_v6 (F := Ideal) x0 (ix1 n) = unit (quat x0 n) 0 := by
  have e : idx_main_v5 (idx_main_v6 (ix1 n)) = ix2 n (0 : Fin 4) :=
    funext fun a => Fin.ext (by match a with | ⟨0, _⟩ => exact Nat.div_one _ | ⟨1, _⟩ => rfl)
  rw [val_main_v6_apply, val_main_v5_apply, e, div_eq]

theorem x_eq (x0 : Quats) (n : Fin 4000000) : val_main_v8 (F := Ideal) x0 (ix1 n) = unit (quat x0 n) 1 := by
  have e : idx_main_v7 (idx_main_v8 (ix1 n)) = ix2 n (1 : Fin 4) :=
    funext fun a => Fin.ext (by match a with | ⟨0, _⟩ => exact Nat.div_one _ | ⟨1, _⟩ => rfl)
  rw [val_main_v8_apply, val_main_v7_apply, e, div_eq]

theorem y_eq (x0 : Quats) (n : Fin 4000000) : val_main_v10 (F := Ideal) x0 (ix1 n) = unit (quat x0 n) 2 := by
  have e : idx_main_v9 (idx_main_v10 (ix1 n)) = ix2 n (2 : Fin 4) :=
    funext fun a => Fin.ext (by match a with | ⟨0, _⟩ => exact Nat.div_one _ | ⟨1, _⟩ => rfl)
  rw [val_main_v10_apply, val_main_v9_apply, e, div_eq]

theorem z_eq (x0 : Quats) (n : Fin 4000000) : val_main_v12 (F := Ideal) x0 (ix1 n) = unit (quat x0 n) 3 := by
  have e : idx_main_v11 (idx_main_v12 (ix1 n)) = ix2 n (3 : Fin 4) :=
    funext fun a => Fin.ext (by match a with | ⟨0, _⟩ => exact Nat.div_one _ | ⟨1, _⟩ => rfl)
  rw [val_main_v12_apply, val_main_v11_apply, e, div_eq]

/-! ## The nine entries of the rotation -/

/-- The constant two spread over the rows reads `two` at every row (each of its nine copies), and the constant one `one`. -/
theorem two16 (i : S4000000.Idx) : val_main_v16 (F := Ideal) i = two := by rw [val_main_v16_apply, val_main_cst_0_apply]; rfl
theorem two23 (i : S4000000.Idx) : val_main_v23 (F := Ideal) i = two := by rw [val_main_v23_apply, val_main_cst_2_apply]; rfl
theorem two28 (i : S4000000.Idx) : val_main_v28 (F := Ideal) i = two := by rw [val_main_v28_apply, val_main_cst_3_apply]; rfl
theorem two33 (i : S4000000.Idx) : val_main_v33 (F := Ideal) i = two := by rw [val_main_v33_apply, val_main_cst_4_apply]; rfl
theorem two38 (i : S4000000.Idx) : val_main_v38 (F := Ideal) i = two := by rw [val_main_v38_apply, val_main_cst_5_apply]; rfl
theorem two45 (i : S4000000.Idx) : val_main_v45 (F := Ideal) i = two := by rw [val_main_v45_apply, val_main_cst_7_apply]; rfl
theorem two50 (i : S4000000.Idx) : val_main_v50 (F := Ideal) i = two := by rw [val_main_v50_apply, val_main_cst_8_apply]; rfl
theorem two55 (i : S4000000.Idx) : val_main_v55 (F := Ideal) i = two := by rw [val_main_v55_apply, val_main_cst_9_apply]; rfl
theorem two60 (i : S4000000.Idx) : val_main_v60 (F := Ideal) i = two := by rw [val_main_v60_apply, val_main_cst_10_apply]; rfl
theorem one18 (i : S4000000.Idx) : val_main_v18 (F := Ideal) i = one := by rw [val_main_v18_apply, val_main_cst_1_apply]; rfl
theorem one40 (i : S4000000.Idx) : val_main_v40 (F := Ideal) i = one := by rw [val_main_v40_apply, val_main_cst_6_apply]; rfl
theorem one62 (i : S4000000.Idx) : val_main_v62 (F := Ideal) i = one := by rw [val_main_v62_apply, val_main_cst_11_apply]; rfl

/-- Entry (0, 0): 1 − 2 (y² + z²). -/
theorem rot0 (x0 : Quats) (n : Fin 4000000) : val_main_v19 (F := Ideal) x0 (ix1 n) = rotc (unit (quat x0 n)) ⟨0, by decide⟩ := by
  rw [val_main_v19_apply, val_main_v17_apply, val_main_v15_apply, val_main_v13_apply, val_main_v14_apply,
    one18, two16, y_eq, z_eq]
  rfl

/-- Entry (0, 1): 2 (x y − r z). -/
theorem rot1 (x0 : Quats) (n : Fin 4000000) : val_main_v24 (F := Ideal) x0 (ix1 n) = rotc (unit (quat x0 n)) ⟨1, by decide⟩ := by
  rw [val_main_v24_apply, val_main_v22_apply, val_main_v20_apply, val_main_v21_apply, two23, r_eq, x_eq, y_eq, z_eq]
  rfl

/-- Entry (0, 2): 2 (x z + r y). -/
theorem rot2 (x0 : Quats) (n : Fin 4000000) : val_main_v29 (F := Ideal) x0 (ix1 n) = rotc (unit (quat x0 n)) ⟨2, by decide⟩ := by
  rw [val_main_v29_apply, val_main_v27_apply, val_main_v25_apply, val_main_v26_apply, two28, r_eq, x_eq, y_eq, z_eq]
  rfl

/-- Entry (1, 0): 2 (x y + r z). -/
theorem rot3 (x0 : Quats) (n : Fin 4000000) : val_main_v34 (F := Ideal) x0 (ix1 n) = rotc (unit (quat x0 n)) ⟨3, by decide⟩ := by
  rw [val_main_v34_apply, val_main_v32_apply, val_main_v30_apply, val_main_v31_apply, two33, r_eq, x_eq, y_eq, z_eq]
  rfl

/-- Entry (1, 1): 1 − 2 (x² + z²). -/
theorem rot4 (x0 : Quats) (n : Fin 4000000) : val_main_v41 (F := Ideal) x0 (ix1 n) = rotc (unit (quat x0 n)) ⟨4, by decide⟩ := by
  rw [val_main_v41_apply, val_main_v39_apply, val_main_v37_apply, val_main_v35_apply, val_main_v36_apply,
    one40, two38, x_eq, z_eq]
  rfl

/-- Entry (1, 2): 2 (y z − r x). -/
theorem rot5 (x0 : Quats) (n : Fin 4000000) : val_main_v46 (F := Ideal) x0 (ix1 n) = rotc (unit (quat x0 n)) ⟨5, by decide⟩ := by
  rw [val_main_v46_apply, val_main_v44_apply, val_main_v42_apply, val_main_v43_apply, two45, r_eq, x_eq, y_eq, z_eq]
  rfl

/-- Entry (2, 0): 2 (x z − r y). -/
theorem rot6 (x0 : Quats) (n : Fin 4000000) : val_main_v51 (F := Ideal) x0 (ix1 n) = rotc (unit (quat x0 n)) ⟨6, by decide⟩ := by
  rw [val_main_v51_apply, val_main_v49_apply, val_main_v47_apply, val_main_v48_apply, two50, r_eq, x_eq, y_eq, z_eq]
  rfl

/-- Entry (2, 1): 2 (y z + r x). -/
theorem rot7 (x0 : Quats) (n : Fin 4000000) : val_main_v56 (F := Ideal) x0 (ix1 n) = rotc (unit (quat x0 n)) ⟨7, by decide⟩ := by
  rw [val_main_v56_apply, val_main_v54_apply, val_main_v52_apply, val_main_v53_apply, two55, r_eq, x_eq, y_eq, z_eq]
  rfl

/-- Entry (2, 2): 1 − 2 (x² + y²). -/
theorem rot8 (x0 : Quats) (n : Fin 4000000) : val_main_v63 (F := Ideal) x0 (ix1 n) = rotc (unit (quat x0 n)) ⟨8, by decide⟩ := by
  rw [val_main_v63_apply, val_main_v61_apply, val_main_v59_apply, val_main_v57_apply, val_main_v58_apply,
    one62, two60, x_eq, y_eq]
  rfl

/-! ## The nine columns joined side by side -/

/-- Each entry of the rotation, spread into a one-column matrix, reads the entry at the row. -/
theorem col0 (x0 : Quats) (n : Fin 4000000) :
    val_main_v64 (F := Ideal) x0 (ix2 n (0 : Fin 1)) = rotc (unit (quat x0 n)) ⟨0, by decide⟩ := by
  have e : idx_main_v64 (ix2 n (0 : Fin 1)) = ix1 n := funext fun a => by match a with | ⟨0, _⟩ => rfl
  rw [val_main_v64_apply, e, rot0]

theorem col1 (x0 : Quats) (n : Fin 4000000) :
    val_main_v65 (F := Ideal) x0 (ix2 n (0 : Fin 1)) = rotc (unit (quat x0 n)) ⟨1, by decide⟩ := by
  have e : idx_main_v65 (ix2 n (0 : Fin 1)) = ix1 n := funext fun a => by match a with | ⟨0, _⟩ => rfl
  rw [val_main_v65_apply, e, rot1]

theorem col2 (x0 : Quats) (n : Fin 4000000) :
    val_main_v66 (F := Ideal) x0 (ix2 n (0 : Fin 1)) = rotc (unit (quat x0 n)) ⟨2, by decide⟩ := by
  have e : idx_main_v66 (ix2 n (0 : Fin 1)) = ix1 n := funext fun a => by match a with | ⟨0, _⟩ => rfl
  rw [val_main_v66_apply, e, rot2]

theorem col3 (x0 : Quats) (n : Fin 4000000) :
    val_main_v67 (F := Ideal) x0 (ix2 n (0 : Fin 1)) = rotc (unit (quat x0 n)) ⟨3, by decide⟩ := by
  have e : idx_main_v67 (ix2 n (0 : Fin 1)) = ix1 n := funext fun a => by match a with | ⟨0, _⟩ => rfl
  rw [val_main_v67_apply, e, rot3]

theorem col4 (x0 : Quats) (n : Fin 4000000) :
    val_main_v68 (F := Ideal) x0 (ix2 n (0 : Fin 1)) = rotc (unit (quat x0 n)) ⟨4, by decide⟩ := by
  have e : idx_main_v68 (ix2 n (0 : Fin 1)) = ix1 n := funext fun a => by match a with | ⟨0, _⟩ => rfl
  rw [val_main_v68_apply, e, rot4]

theorem col5 (x0 : Quats) (n : Fin 4000000) :
    val_main_v69 (F := Ideal) x0 (ix2 n (0 : Fin 1)) = rotc (unit (quat x0 n)) ⟨5, by decide⟩ := by
  have e : idx_main_v69 (ix2 n (0 : Fin 1)) = ix1 n := funext fun a => by match a with | ⟨0, _⟩ => rfl
  rw [val_main_v69_apply, e, rot5]

theorem col6 (x0 : Quats) (n : Fin 4000000) :
    val_main_v70 (F := Ideal) x0 (ix2 n (0 : Fin 1)) = rotc (unit (quat x0 n)) ⟨6, by decide⟩ := by
  have e : idx_main_v70 (ix2 n (0 : Fin 1)) = ix1 n := funext fun a => by match a with | ⟨0, _⟩ => rfl
  rw [val_main_v70_apply, e, rot6]

theorem col7 (x0 : Quats) (n : Fin 4000000) :
    val_main_v71 (F := Ideal) x0 (ix2 n (0 : Fin 1)) = rotc (unit (quat x0 n)) ⟨7, by decide⟩ := by
  have e : idx_main_v71 (ix2 n (0 : Fin 1)) = ix1 n := funext fun a => by match a with | ⟨0, _⟩ => rfl
  rw [val_main_v71_apply, e, rot7]

theorem col8 (x0 : Quats) (n : Fin 4000000) :
    val_main_v72 (F := Ideal) x0 (ix2 n (0 : Fin 1)) = rotc (unit (quat x0 n)) ⟨8, by decide⟩ := by
  have e : idx_main_v72 (ix2 n (0 : Fin 1)) = ix1 n := funext fun a => by match a with | ⟨0, _⟩ => rfl
  rw [val_main_v72_apply, e, rot8]

/-- Of pieces with one column each, joined along the columns, column `k` of the result is piece `k`: the pieces before
    it span `k` columns. -/
theorem cat_piece {α : Type} (xs : List ((s : Shape) × (s.Idx → α)))
    (h : Shape.Concatenates (xs.map (·.1)) S4000000x9 1) (n : Fin 4000000) (k : Fin 9) (hk : k.val < xs.length)
    (y : S4000000x1.Idx → α) (hxk : xs[k.val] = ⟨S4000000x1, y⟩)
    (hpre : (((xs.take k.val).map (·.1)).map fun s =>
      if h : s.rank = S4000000x9.rank then s.size ((1 : Fin S4000000x9.rank).cast h.symm) else 0).sum = k.val) :
    concatenate S4000000x9 1 xs h (ix2 n k) = y (ix2 n (0 : Fin 1)) :=
  concatenate_apply_piece 1 xs h (ix2 n k) k.val hk S4000000x1 y hxk rfl k.val hpre (ix2 n (0 : Fin 1))
    (fun b hb => by
      match b with
      | ⟨0, _⟩ => rfl
      | ⟨1, _⟩ => exact absurd rfl hb)
    rfl

/-- Column `c` of the joined matrix is entry `c` of the rotation. -/
theorem cat_eq (x0 : Quats) (n : Fin 4000000) (c : Fin 9) :
    val_main_v73 (F := Ideal) x0 (ix2 n c) = rotc (unit (quat x0 n)) c := by
  unfold val_main_v73
  match c with
  | ⟨0, _⟩ =>
    exact (cat_piece _ _ n ⟨0, by decide⟩ (by exact (show (0 : Nat) < 9 by decide)) (val_main_v64 (F := Ideal) x0) rfl rfl).trans
      (col0 x0 n)
  | ⟨1, _⟩ =>
    exact (cat_piece _ _ n ⟨1, by decide⟩ (by exact (show (1 : Nat) < 9 by decide)) (val_main_v65 (F := Ideal) x0) rfl rfl).trans
      (col1 x0 n)
  | ⟨2, _⟩ =>
    exact (cat_piece _ _ n ⟨2, by decide⟩ (by exact (show (2 : Nat) < 9 by decide)) (val_main_v66 (F := Ideal) x0) rfl rfl).trans
      (col2 x0 n)
  | ⟨3, _⟩ =>
    exact (cat_piece _ _ n ⟨3, by decide⟩ (by exact (show (3 : Nat) < 9 by decide)) (val_main_v67 (F := Ideal) x0) rfl rfl).trans
      (col3 x0 n)
  | ⟨4, _⟩ =>
    exact (cat_piece _ _ n ⟨4, by decide⟩ (by exact (show (4 : Nat) < 9 by decide)) (val_main_v68 (F := Ideal) x0) rfl rfl).trans
      (col4 x0 n)
  | ⟨5, _⟩ =>
    exact (cat_piece _ _ n ⟨5, by decide⟩ (by exact (show (5 : Nat) < 9 by decide)) (val_main_v69 (F := Ideal) x0) rfl rfl).trans
      (col5 x0 n)
  | ⟨6, _⟩ =>
    exact (cat_piece _ _ n ⟨6, by decide⟩ (by exact (show (6 : Nat) < 9 by decide)) (val_main_v70 (F := Ideal) x0) rfl rfl).trans
      (col6 x0 n)
  | ⟨7, _⟩ =>
    exact (cat_piece _ _ n ⟨7, by decide⟩ (by exact (show (7 : Nat) < 9 by decide)) (val_main_v71 (F := Ideal) x0) rfl rfl).trans
      (col7 x0 n)
  | ⟨8, _⟩ =>
    exact (cat_piece _ _ n ⟨8, by decide⟩ (by exact (show (8 : Nat) < 9 by decide)) (val_main_v72 (F := Ideal) x0) rfl rfl).trans
      (col8 x0 n)

/-! ## Read back as a 3 × 3 matrix, and the scales -/

/-- Entry (i, j) of the 3 × 3 matrix of row `n` is place 3 i + j of the nine: both sit at 9 n + 3 i + j in row-major order. -/
theorem mat_eq (x0 : Quats) (n : Fin 4000000) (i j : Fin 3) :
    val_main_v74 (F := Ideal) x0 (ix3 n i j) = rotc (unit (quat x0 n)) (flat i j) := by
  have e : idx_main_v74 (ix3 n i j) = ix2 n (flat i j) := funext fun a => Fin.ext (by
    have hn := n.isLt; have hi := i.isLt; have hj := j.isLt
    match a with
    | ⟨0, _⟩ => show ((n.val * 3 + i.val) * 3 + j.val) / 9 = n.val; omega
    | ⟨1, _⟩ => show ((n.val * 3 + i.val) * 3 + j.val) % 9 = 3 * i.val + j.val; omega)
  rw [val_main_v74_apply, e, cat_eq]

/-- The scales spread over the rows of the matrix: entry (i, j) reads scale `j` of row `n`. -/
theorem scale_eq (x1 : Scales) (n : Fin 4000000) (i j : Fin 3) :
    val_main_v76 (F := Ideal) x1 (ix3 n i j) = scal x1 n j := by
  have e : idx_main_v75 (idx_main_v76 (ix3 n i j)) = ix2 n j :=
    funext fun a => by match a with | ⟨0, _⟩ => rfl | ⟨1, _⟩ => rfl
  rw [val_main_v76_apply, val_main_v75_apply, e]

/-- The rotation with its columns scaled. -/
theorem mc_eq (x0 : Quats) (x1 : Scales) (n : Fin 4000000) (i j : Fin 3) :
    val_main_v77 (F := Ideal) x0 x1 (ix3 n i j) = mc (quat x0 n) (scal x1 n) i j := by
  rw [val_main_v77_apply, mat_eq, scale_eq]
  rfl

/-! ## The contraction -/

/-- THE REFERENCE'S RESULT is `G`: entry (n, i, k) is the sum over the three columns of M i j * M k j. -/
theorem result_eq
    (x0 : (⟨Cert.ReferenceIdeal.S4000000x4, .f32⟩ : BufTy).Contents (Elt Ideal))
    (x1 : (⟨Cert.ReferenceIdeal.S4000000x3, .f32⟩ : BufTy).Contents (Elt Ideal)) :
    Cert.ReferenceIdeal.Read.val_main_v78 (F := Ideal) x0 x1 = Cert.QuatCov.G x0 x1 := by
  funext j
  obtain ⟨n, i, k, rfl⟩ : ∃ (n : Fin 4000000) (i k : Fin 3), j = ix3 n i k := ⟨j 0, j 1, j 2, eq_ix3 j⟩
  have el : ∀ c : Fin 3, lidx_main_v78 (ix3 n i k) c = ix3 n i c := fun c =>
    funext fun a => by match a with | ⟨0, _⟩ => rfl | ⟨1, _⟩ => rfl | ⟨2, _⟩ => rfl
  have er : ∀ c : Fin 3, ridx_main_v78 (ix3 n i k) c = ix3 n k c := fun c =>
    funext fun a => by match a with | ⟨0, _⟩ => rfl | ⟨1, _⟩ => rfl | ⟨2, _⟩ => rfl
  rw [val_main_v78_apply, Fin.sum_univ_three, el 0, el 1, el 2, er 0, er 1, er 2,
    mc_eq, mc_eq, mc_eq, mc_eq, mc_eq, mc_eq]
  rfl

end Cert.QuatCov.Ref

end
-- ==== Proof.lean ====
/-
  Per-row covariance from a quaternion and three scales: the kernel against the reference, on the extended reals.

  Both programs take 4000000 rows, each a quaternion q and three scales s, and return for each row the 3 × 3 Gram matrix
  of M = R(q / max |q| 1e-12) · diag s, where R is the rotation matrix of a quaternion. The reference computes it on
  the arrays as given: the norm as the square root of a row sum, the nine entries of R joined into a matrix, the scales
  spread over its rows, a contraction over the last axis. The kernel pads the rows up to a multiple of 32768, lays every
  coordinate out as rows of 128 lanes, computes on 123 blocks of 256 such rows the six Gram entries on and above the
  diagonal — each a three-term sum of products — stores the three off-diagonal ones a second time below the diagonal,
  and undoes the layout.

  Read at the ideal instance both are the one function `Cert.QuatCov.G` of the two arguments (Proof/Spec.lean):
    · the reference, operation by operation at explicit coordinates (Proof/RefValue.lean);
    · the kernel, in five steps: the body's nine stores as one function of its two input blocks (Proof/KernelBlock.lean);
      block t of the output as that function of rows 256 t … 256 t + 255 of the staged arrays, the blocks tiling the
      output (Proof/KernelArray.lean); the staged arrays read back to the arguments (Proof/HostPrefix.lean); the lines
      after the region read at an index (Proof/HostTail.lean); and the run (Proof/KernelRun.lean).
  The two differ only in how three-term sums are grouped and in which factor of a product comes first, so no law is used
  beyond the commutativity of the product on the extended reals, and the precondition that the inputs are finite is never
  opened: the padding rows are cut off again before anything reads them.

  The three frames are the generated ones (the reference's is its generated run with the result dropped); the kernel's
  idealization rewrote nothing, so `preserves` is `True`.
-/
import proofs.«102986_j60945585930483_2_alg».proof.Defs
import proofs.«102986_j60945585930483_2_alg».proof.Proof.Gen.Kernel
import proofs.«102986_j60945585930483_2_alg».proof.Proof.Gen.Kernel.Skeleton
import proofs.«102986_j60945585930483_2_alg».proof.Proof.Gen.Kernel.Launch
import proofs.«102986_j60945585930483_2_alg».proof.Proof.Gen.Kernel.Points
import proofs.«102986_j60945585930483_2_alg».proof.Proof.Gen.Kernel.Frame
import proofs.«102986_j60945585930483_2_alg».proof.Proof.Gen.KernelIdeal
import proofs.«102986_j60945585930483_2_alg».proof.Proof.Gen.KernelIdeal.Skeleton
import proofs.«102986_j60945585930483_2_alg».proof.Proof.Gen.KernelIdeal.Launch
import proofs.«102986_j60945585930483_2_alg».proof.Proof.Gen.KernelIdeal.Points
import proofs.«102986_j60945585930483_2_alg».proof.Proof.Gen.KernelIdeal.Frame
import proofs.«102986_j60945585930483_2_alg».proof.Proof.Gen.ReferenceIdeal
import proofs.«102986_j60945585930483_2_alg».proof.Proof.Gen.Pre_finite_inputs
import proofs.«102986_j60945585930483_2_alg».proof.Proof.Gen.ReferenceIdeal.Run
import proofs.«102986_j60945585930483_2_alg».proof.Proof.Gen.ReferenceIdeal.Read
import proofs.«102986_j60945585930483_2_alg».proof.Proof.KernelRun
import proofs.«102986_j60945585930483_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with `G` of them in their result. -/
theorem algebraic : Cert.algebraic_KernelIdeal_ReferenceIdeal := by
  intro m ρ m' ρ' _ hagree
  refine ⟨fun c => Cert.QuatCov.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.QuatCov.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.QuatCov.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
